-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S64x2048 : Shape := ⟨2, ![64, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S64x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_v13 main_v16
-- ==== Kernel.lean ====
abbrev S2x16x2048x64 : Shape := ⟨4, ![2, 16, 2048, 64]⟩
abbrev S64x2048 : Shape := ⟨2, ![64, 2048]⟩
abbrev S32x2048x64 : Shape := ⟨3, ![32, 2048, 64]⟩
abbrev S2048x64 : Shape := ⟨2, ![2048, 64]⟩
abbrev S1x512x64 : Shape := ⟨3, ![1, 512, 64]⟩
abbrev S1x2048x64 : Shape := ⟨3, ![1, 2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S64x2048, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2048x64, .f32⟩
  | .hbm, ⟨8, _⟩ => ⟨S32x2048x64, .f32⟩
  | .hbm, ⟨9, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S2048x64, .f32⟩
  | .local _ .vmem, ⟨7, _⟩ => ⟨S1x512x64, .f32⟩
  | .local _ .vmem, ⟨8, _⟩ => ⟨S1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  transposes_S64x2048_S2048x64_1_0 : S64x2048.Transposes [1, 0] S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S64x2048 : Shape := ⟨2, ![64, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S64x2048, .f32⟩
  | .hbm, ⟨4, _⟩ => ⟨S2x16x2048x2048, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x64_S64x2048_S2x16x2048x2048_3_0_012_1_n_n_wf : DotDims.WF S2x16x2048x64 S64x2048 S2x16x2048x2048 [3] [0] [0, 1, 2] [1] [] []
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x64_S64x2048_S2x16x2048x2048_3_0_012_1_n_n : DotDims S2x16x2048x64 S64x2048 S2x16x2048x2048 where
  lhsContracting := [3]
  rhsContracting := [0]
  lhsNonContracting := [0, 1, 2]
  rhsNonContracting := [1]
  lhsBatch := []
  rhsBatch := []
  wf := dot_S2x16x2048x64_S64x2048_S2x16x2048x2048_3_0_012_1_n_n_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Consts.lean ====
/-
  The float constants the two programs spell, as the extended reals their binary32 words denote: 0.125 is 1/8, 64.0 is 64,
  so its square root is 8; the zero word is 0 and the word of −∞ is the least extended real.
-/
import Idealize.ShloMosaic.PureOps.Ideal

noncomputable section

namespace Cert.Consts

open Idealize.ShloMosaic

/-- The word of `0.125` denotes the real `1/8`. -/
theorem ofBits_eighth : Ideal.ofBits .f32 0x3E000000#32 = ((1 / 8 : ℝ) : EReal) := by
  simp [Ideal.ofBits, Ideal.ieee, -EReal.coe_mul]; norm_num

/-- The word of `64.0` denotes the real `64`. -/
theorem ofBits_64 : Ideal.ofBits .f32 0x42800000#32 = ((64 : ℝ) : EReal) := by
  simp [Ideal.ofBits, Ideal.ieee, -EReal.coe_mul]; norm_num

/-- The square root of `64.0` is the real `8`. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 * 8 by norm_num]
  exact Real.sqrt_mul_self (by norm_num)

/-- The zero word denotes `0`. -/
theorem ofBits_zero : Ideal.ofBits .f32 0x00000000#32 = 0 := by
  simp [Ideal.ofBits, Ideal.ieee]

/-- The word of `−∞` denotes the least extended real. -/
theorem ofBits_neg_inf : Ideal.ofBits .f32 0xFF800000#32 = ⊥ := by
  simp [Ideal.ofBits, Ideal.ieee]

end Cert.Consts

end
-- ==== Proof.Finite.lean ====
/-
  From the precondition to finiteness. The precondition is the conjunction, over the four input arrays, of
  "every entry x has |x| < +∞". At the extended reals |x| is max x (−x), and max x (−x) < ⊤ says that x is neither ⊤
  nor ⊥: every entry of every input is a real.
-/
import proofs.«150011_j21577915695388_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic

/-- The binary32 word of +∞ denotes the greatest extended real. -/
theorem ofBits_pos_inf : Ideal.ofBits .f32 0x7F800000#32 = ⊤ := by simp [Ideal.ofBits, Ideal.ieee]

/-- An extended real whose absolute value compares below +∞ is neither infinity. -/
theorem finite_of_abs_lt (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hn
    simp [Ideal.cmp, hn] at h
  constructor
  · rintro rfl; simp at hlt
  · rintro rfl; simp at hlt

section
variable [Cert.Pre_finite_inputs.Facts]
open Cert.Pre_finite_inputs Cert.Pre_finite_inputs.Facts

instance : Subsingleton S_.Idx := ⟨fun a b => funext fun d => d.elim0⟩

/-- Where the precondition holds, every entry of each of the four input arrays is a real. -/
theorem finite_of_pre (a0 a1 a2 : FVec Ideal S2x16x2048x64 .f32) (a3 : FVec Ideal S64x2048 .f32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => finite_of_abs_lt _ (Host.reduce_andi_all _ _ _ _ _ h0' i),
    fun i => finite_of_abs_lt _ (Host.reduce_andi_all _ _ _ _ _ h1 i),
    fun i => finite_of_abs_lt _ (Host.reduce_andi_all _ _ _ _ _ h2 i),
    fun i => finite_of_abs_lt _ (Host.reduce_andi_all _ _ _ _ _ h3 i)⟩

end

end Cert.Finite

end
-- ==== Proof.LibAttention.lean ====
/-
  One entry of an attention output, as a function of one query row, the content keys, the positional keys and one
  column of the values, over the extended reals.

  The row of scaled scores comes in two arrangements. One contracts the query against the sum of the content key and
  the positional key and multiplies by a scale: s(t) = (Σ_d q(d) · (k(t,d) + pe(t,d))) · c. The other contracts the
  query against each separately, adds, and divides: s(t) = (Σ_d q(d) · k(t,d) + Σ_d q(d) · pe(t,d)) / r.
  The softmax weight of key t in a row of scores is exp(s(t) − max_t' s(t')), the maximum taken as a fold from −∞.
  The output entry is the weighted mean of the value column, again in two arrangements: normalise last,
  (Σ_t w(t) · v(t)) / Σ_t w(t), or normalise first, Σ_t (w(t) / Σ_t' w(t')) · v(t).
-/
import Idealize.ShloMosaic.PureOps.Ideal

noncomputable section

namespace Cert.Attn

open Idealize.ShloMosaic

variable {T D : Type} [Fintype T] [Fintype D]

/-- Scaled scores, one contraction against the summed keys, times the scale `c`. -/
def scoreK (c : EReal) (q : D → EReal) (k pe : T → D → EReal) (t : T) : EReal :=
  (∑ d, q d * (k t d + pe t d)) * c

/-- Scaled scores, two contractions added, divided by `r`. -/
def scoreR (r : EReal) (q : D → EReal) (k pe : T → D → EReal) (t : T) : EReal :=
  Ideal.div ((∑ d, q d * k t d) + ∑ d, q d * pe t d) r

/-- The unnormalised softmax weight of key `t` in a row of scores. -/
def weight (s : T → EReal) (t : T) : EReal :=
  Ideal.exp (s t - (Finset.univ : Finset T).fold max ⊥ s)

/-- The weighted mean of a value column, normalised after the sum. -/
def normLast (s v : T → EReal) : EReal :=
  Ideal.div (∑ t, weight s t * v t) (∑ t, weight s t)

/-- The weighted mean of a value column, each weight normalised before the sum. -/
def normFirst (s v : T → EReal) : EReal :=
  ∑ t, Ideal.div (weight s t) (∑ t', weight s t') * v t

end Cert.Attn

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.LibAttentionLaw.lean ====
/-
  The law that joins the two arrangements of one attention output entry, at finite inputs.

  When the query, the keys, the positional keys and the value column are all real, both arrangements of the scaled
  scores are the same row of embedded reals, s(t) = (Σ_d q(d) · (k(t,d) + pe(t,d))) / 8: multiplication distributes
  over the sum of the two keys, and dividing by 8 is multiplying by 1/8. The maximum of a nonempty finite row of
  embedded reals, folded from −∞, is again an embedded real M, so every softmax weight is the positive real
  w(t) = exp(s(t) − M), and the row sum L = Σ_t w(t) is a positive real. Both arrangements of the weighted mean are
  then real, and (Σ_t w(t) · v(t)) / L = Σ_t (w(t) / L) · v(t) is the distributive law.
-/
import proofs.«150011_j21577915695388_2_alg».proof.Proof.LibAttention
import proofs.«150011_j21577915695388_2_alg».proof.Proof.LibERealSum

noncomputable section

namespace Cert.Attn

open Idealize.ShloMosaic
open Cert.Lib.ERealSum

variable {T D : Type} [Fintype T] [Fintype D]

/-- The common real row of scaled scores. -/
def realScore (q : D → ℝ) (k pe : T → D → ℝ) (t : T) : ℝ :=
  (∑ d, q d * (k t d + pe t d)) * (1 / 8)

/-- At real inputs, the scores contracted against the summed keys and scaled by 1/8 are the embedded real row. -/
theorem scoreK_coe (q : D → ℝ) (k pe : T → D → ℝ) :
    scoreK ((1 / 8 : ℝ) : EReal) (fun d => (q d : EReal)) (fun t d => (k t d : EReal))
        (fun t d => (pe t d : EReal))
      = fun t => (realScore q k pe t : EReal) := by
  funext t
  show (∑ d, (q d : EReal) * ((k t d : EReal) + (pe t d : EReal))) * ((1 / 8 : ℝ) : EReal) = _
  have h : ∀ d, (q d : EReal) * ((k t d : EReal) + (pe t d : EReal))
      = (q d : EReal) * ((k t d + pe t d : ℝ) : EReal) := fun d => by rw [EReal.coe_add]
  rw [Finset.sum_congr rfl fun d _ => h d, sum_coe_mul_coe, ← EReal.coe_mul]
  rfl

/-- At real inputs, the scores contracted separately, added and divided by 8 are the same embedded real row. -/
theorem scoreR_coe (q : D → ℝ) (k pe : T → D → ℝ) :
    scoreR ((8 : ℝ) : EReal) (fun d => (q d : EReal)) (fun t d => (k t d : EReal))
        (fun t d => (pe t d : EReal))
      = fun t => (realScore q k pe t : EReal) := by
  funext t
  show Ideal.div ((∑ d, (q d : EReal) * (k t d : EReal)) + ∑ d, (q d : EReal) * (pe t d : EReal))
      ((8 : ℝ) : EReal) = _
  have hsum : (∑ d, q d * k t d) + ∑ d, q d * pe t d = ∑ d, q d * (k t d + pe t d) := by
    rw [← Finset.sum_add_distrib]
    exact Finset.sum_congr rfl fun d _ => (mul_add _ _ _).symm
  rw [sum_coe_mul_coe, sum_coe_mul_coe, ← EReal.coe_add, Ideal.div_coe (by norm_num : (8 : ℝ) ≠ 0),
    ← EReal.coe_mul, hsum]
  rfl

/-- The maximum of a nonempty finite row of embedded reals, folded from −∞, is an embedded real. -/
theorem fold_max_coe [Nonempty T] (sc : T → ℝ) :
    ∃ M : ℝ, (Finset.univ : Finset T).fold max ⊥ (fun t => (sc t : EReal)) = (M : EReal) := by
  obtain ⟨t0, -, ht0⟩ := Finset.exists_max_image (Finset.univ : Finset T) sc Finset.univ_nonempty
  refine ⟨sc t0, le_antisymm ?_ ?_⟩
  · rw [Finset.fold_max_le]
    exact ⟨bot_le, fun t ht => EReal.coe_le_coe_iff.mpr (ht0 t ht)⟩
  · rw [Finset.le_fold_max]
    exact Or.inr ⟨t0, Finset.mem_univ _, le_rfl⟩

/-- With the row maximum the real M, each softmax weight is the embedded positive real exp(s(t) − M). -/
theorem weight_coe (sc : T → ℝ) {M : ℝ}
    (hM : (Finset.univ : Finset T).fold max ⊥ (fun t => (sc t : EReal)) = (M : EReal)) (t : T) :
    weight (fun t => (sc t : EReal)) t = ((Real.exp (sc t - M) : ℝ) : EReal) := by
  show Ideal.exp ((sc t : EReal) - (Finset.univ : Finset T).fold max ⊥ (fun t => (sc t : EReal))) = _
  rw [hM, ← EReal.coe_sub, Ideal.exp_coe]

/-- For a real row of scores and a real value column, normalising last and normalising first agree. -/
theorem normLast_eq_normFirst_coe [Nonempty T] (sc v : T → ℝ) :
    normLast (fun t => (sc t : EReal)) (fun t => (v t : EReal))
      = normFirst (fun t => (sc t : EReal)) (fun t => (v t : EReal)) := by
  obtain ⟨M, hM⟩ := fold_max_coe sc
  have hw := weight_coe sc hM
  have hL : 0 < ∑ t, Real.exp (sc t - M) :=
    Finset.sum_pos (fun t _ => Real.exp_pos _) Finset.univ_nonempty
  have hL0 : (∑ t, Real.exp (sc t - M)) ≠ 0 := ne_of_gt hL
  have hsum : ∑ t, weight (fun t => (sc t : EReal)) t = ((∑ t, Real.exp (sc t - M) : ℝ) : EReal) := by
    rw [coe_finset_sum]
    exact Finset.sum_congr rfl fun t _ => hw t
  have hnum : ∑ t, weight (fun t => (sc t : EReal)) t * (v t : EReal)
      = ((∑ t, Real.exp (sc t - M) * v t : ℝ) : EReal) := by
    rw [← sum_coe_mul_coe]
    exact Finset.sum_congr rfl fun t _ => by rw [hw t]
  have hterm : ∀ t, Ideal.div (weight (fun t => (sc t : EReal)) t)
        ((∑ t, Real.exp (sc t - M) : ℝ) : EReal) * (v t : EReal)
      = ((Real.exp (sc t - M) * (1 / ∑ t, Real.exp (sc t - M)) * v t : ℝ) : EReal) := fun t => by
    rw [hw t, Ideal.div_coe hL0, ← EReal.coe_mul, ← EReal.coe_mul]
  show Ideal.div (∑ t, weight (fun t => (sc t : EReal)) t * (v t : EReal))
        (∑ t, weight (fun t => (sc t : EReal)) t)
      = ∑ t, Ideal.div (weight (fun t => (sc t : EReal)) t) (∑ t', weight (fun t => (sc t : EReal)) t')
          * (v t : EReal)
  rw [hsum, hnum, Ideal.div_coe hL0, ← EReal.coe_mul, Finset.sum_congr rfl fun t _ => hterm t,
    ← coe_finset_sum]
  congr 1
  rw [Finset.sum_mul]
  exact Finset.sum_congr rfl fun t _ => by ring

/-- At finite inputs, the output entry computed from the scores scaled by 1/8 and normalised last equals the one
    computed from the scores divided by 8 and normalised first. -/
theorem normLast_eq_normFirst {T D : Type} [Fintype T] [Fintype D] [Nonempty T]
    (q : D → EReal) (k pe : T → D → EReal) (v : T → EReal)
    (hq : ∀ d, q d ≠ ⊤ ∧ q d ≠ ⊥) (hk : ∀ t d, k t d ≠ ⊤ ∧ k t d ≠ ⊥)
    (hpe : ∀ t d, pe t d ≠ ⊤ ∧ pe t d ≠ ⊥) (hv : ∀ t, v t ≠ ⊤ ∧ v t ≠ ⊥) :
    normLast (scoreK ((1 / 8 : ℝ) : EReal) q k pe) v = normFirst (scoreR ((8 : ℝ) : EReal) q k pe) v := by
  obtain ⟨q, rfl⟩ : ∃ q' : D → ℝ, q = fun d => (q' d : EReal) :=
    ⟨fun d => (q d).toReal, funext fun d => (EReal.coe_toReal (hq d).1 (hq d).2).symm⟩
  obtain ⟨k, rfl⟩ : ∃ k' : T → D → ℝ, k = fun t d => (k' t d : EReal) :=
    ⟨fun t d => (k t d).toReal, funext fun t => funext fun d => (EReal.coe_toReal (hk t d).1 (hk t d).2).symm⟩
  obtain ⟨pe, rfl⟩ : ∃ pe' : T → D → ℝ, pe = fun t d => (pe' t d : EReal) :=
    ⟨fun t d => (pe t d).toReal,
      funext fun t => funext fun d => (EReal.coe_toReal (hpe t d).1 (hpe t d).2).symm⟩
  obtain ⟨v, rfl⟩ : ∃ v' : T → ℝ, v = fun t => (v' t : EReal) :=
    ⟨fun t => (v t).toReal, funext fun t => (EReal.coe_toReal (hv t).1 (hv t).2).symm⟩
  rw [scoreK_coe, scoreR_coe]
  exact normLast_eq_normFirst_coe _ _

end Cert.Attn

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KernelBody.lean ====
/-
  The kernel body's payload read at one entry, over the extended reals.

  The body computes, for a query block q [512, 64], content keys k [2048, 64], positional keys pe [2048, 64] and values
  v [2048, 64]: the scores s = (q · (k + pe)ᵀ) · (1/8) as one contraction against the summed keys, the row maximum m kept
  as a column, the weights w = exp (s − m), the row sum of the weights kept as a column, the product w · v, and the
  quotient by the row sum. Each non-pointwise step is read at explicit coordinates: a contraction at (p, t) is the sum
  over the contracted coordinate, a row reduction kept as a column and broadcast back reads the reduced row, and the
  casts between [1, a, b] and [a, b] drop or add the unit coordinate. Chained, entry (p, d) of the result is
  (Σ_t w(p,t) · v(t,d)) / Σ_t w(p,t).
-/
import proofs.«150011_j21577915695388_2_alg».proof.Proof.Gen.KernelIdeal.Skeleton
import proofs.«150011_j21577915695388_2_alg».proof.Proof.LibAttention
import proofs.«150011_j21577915695388_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx

namespace Cert.KernelIdeal.Body

open Cert.KernelIdeal Cert.KernelIdeal.Gen Idealize.ShloMosaic.ColumnLayout

/-! ## The two contractions at an entry -/

/-- The score contraction's left index: the query row on axis 0 … -/
theorem score_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- … and the contracted coordinate on axis 1. -/
theorem score_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- The score contraction's right index: the key row on axis 0 … -/
theorem score_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- … and the contracted coordinate on axis 1. -/
theorem score_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score contraction into a zero accumulator, at (p, t): the sum over the feature coordinate of query row p times
    key row t. -/
theorem scoreDot_apply (prec : Option ContractPrecision) (a : FVec Ideal S512x64 .f32) (b : FVec Ideal S2048x64 .f32)
    (p : Fin 512) (t : Fin 2048) :
    matmul dot_S512x64_S2048x64_S512x2048_1_1_0_0_n_n prec a b (constant (F := Ideal) S512x2048 .f32 0x00000000#32) (ix2 p t)
      = ∑ k : Fin 64, a (ix2 p k) * b (ix2 t k) := by
  refine (Ideal.matmul_constant_zero_apply dot_S512x64_S2048x64_S512x2048_1_1_0_0_n_n prec a b (ix2 p t)).trans ?_
  rw [← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p t) ((ValueIdx.contrEquiv1 dot_S512x64_S2048x64_S512x2048_1_1_0_0_n_n 64 rfl rfl).symm k) = ix2 p k := funext fun a => Fin.ext (by
    match a with
    | ⟨0, _⟩ => exact score_lhs_0 _ _
    | ⟨1, _⟩ => exact (score_lhs_1 _ _).trans hk)
  have er : dot_S512x64_S2048x64_S512x2048_1_1_0_0_n_n.rhsIdx (ix2 p t) ((ValueIdx.contrEquiv1 dot_S512x64_S2048x64_S512x2048_1_1_0_0_n_n 64 rfl rfl).symm k) = ix2 t k := funext fun a => Fin.ext (by
    match a with
    | ⟨0, _⟩ => exact score_rhs_0 _ _
    | ⟨1, _⟩ => exact (score_rhs_1 _ _).trans hk)
  rw [el, er]

/-- The value contraction's left index: the query row on axis 0 … -/
theorem value_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- … and the contracted coordinate on axis 1. -/
theorem value_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The value contraction's right index: the contracted coordinate on axis 0 … -/
theorem value_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- … and the value column on axis 1. -/
theorem value_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The value contraction into a zero accumulator, at (p, d): the sum over the keys of weight (p, t) times value (t, d). -/
theorem valueDot_apply (prec : Option ContractPrecision) (a : FVec Ideal S512x2048 .bf16) (b : FVec Ideal S2048x64 .bf16)
    (p : Fin 512) (d : Fin 64) :
    matmul dot_S512x2048_S2048x64_S512x64_1_0_0_1_n_n prec a b (constant (F := Ideal) S512x64 .f32 0x00000000#32) (ix2 p d)
      = ∑ t : Fin 2048, a (ix2 p t) * b (ix2 t d) := by
  refine (Ideal.matmul_constant_zero_apply dot_S512x2048_S2048x64_S512x64_1_0_0_1_n_n prec a b (ix2 p d)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d) ((ValueIdx.contrEquiv1 dot_S512x2048_S2048x64_S512x64_1_0_0_1_n_n 2048 rfl rfl).symm k) = ix2 p k := funext fun a => Fin.ext (by
    match a with
    | ⟨0, _⟩ => exact value_lhs_0 _ _
    | ⟨1, _⟩ => exact (value_lhs_1 _ _).trans hk)
  have er : dot_S512x2048_S2048x64_S512x64_1_0_0_1_n_n.rhsIdx (ix2 p d) ((ValueIdx.contrEquiv1 dot_S512x2048_S2048x64_S512x64_1_0_0_1_n_n 2048 rfl rfl).symm k) = ix2 k d := funext fun a => Fin.ext (by
    match a with
    | ⟨0, _⟩ => exact (value_rhs_0 _ _).trans hk
    | ⟨1, _⟩ => exact value_rhs_1 _ _)
  rw [el, er]

/-! ## The scores, the weights and the weighted mean, as the body computes them -/

/-- The scaled scores from the loaded blocks: the query block and the summed key blocks, cast to matrices, contracted
    over the feature axis into a zero accumulator, times the scale word. -/
def scores (x0 : Vec Ideal S1x512x64 .f32) (x1 : Vec Ideal S1x2048x64 .f32) (x3 : Vec Ideal S2048x64 .f32) :
    FVec Ideal S512x2048 .f32 :=
  mulf
    (matmul dot_S512x64_S2048x64_S512x2048_1_1_0_0_n_n (some .fp32)
      (shapeCast S512x64 x0 shapeCasts_S1x512x64_S512x64 : FVec Ideal S512x64 .f32)
      (addf (shapeCast S2048x64 x1 shapeCasts_S1x2048x64_S2048x64 : FVec Ideal S2048x64 .f32)
        (shapeCast S2048x64 x3 shapeCasts_S2048x64_S2048x64 : FVec Ideal S2048x64 .f32))
      (constant S512x2048 .f32 0x00000000#32))
    (broadcast S512x2048 (Scalar.ofBits .f32 0x3E000000#32))

/-- The weights of a matrix of scores: each score less its row's maximum (the maximum kept as a column and broadcast
    along the row), exponentiated. -/
def weights (s : FVec Ideal S512x2048 .f32) : FVec Ideal S512x2048 .f32 :=
  exp (subf s (broadcastTo S512x2048
    (shapeCast S512x1 (multiReduction (F := Ideal) .maximumf [1] S512 s 0xFF800000#32 reduces_S512x2048_S512 (.inl rfl) rfl)
      shapeCasts_S512_S512x1) broadcasts_S512x1_S512x2048))

/-- The weighted mean of the value matrix's columns: the weights contracted with the values over the keys, divided by the
    weights' row sums (kept as a column and broadcast along the row). -/
def attend (s : FVec Ideal S512x2048 .f32) (v : FVec Ideal S2048x64 .f32) : FVec Ideal S512x64 .f32 :=
  divf
    (matmul dot_S512x2048_S2048x64_S512x64_1_0_0_1_n_n none (truncf .bf16 (weights s) bitsLt_bf16_f32)
      (truncf .bf16 v bitsLt_bf16_f32) (constant S512x64 .f32 0x00000000#32))
    (broadcastTo S512x64
      (shapeCast S512x1 (multiReduction (F := Ideal) .add [1] S512 (weights s) 0x00000000#32 reduces_S512x2048_S512 (.inl rfl) rfl)
        shapeCasts_S512_S512x1) broadcasts_S512x1_S512x64)

/-- The payload is the weighted mean at the scores of the loaded blocks, cast back to a block. -/
theorem pay_eq (x0 : Vec Ideal S1x512x64 .f32) (x1 x2 : Vec Ideal S1x2048x64 .f32) (x3 : Vec Ideal S2048x64 .f32) :
    Gen.k0_pay1 (F := Ideal) x0 x1 x2 x3
      = shapeCast S1x512x64 (attend (scores x0 x1 x3) (shapeCast S2048x64 x2 shapeCasts_S1x2048x64_S2048x64))
          shapeCasts_S512x64_S1x512x64 := rfl

/-- The scaled score at (p, t): query row p contracted against the sum of key row t and positional row t, times the
    scale. -/
theorem scores_apply (x0 : Vec Ideal S1x512x64 .f32) (x1 : Vec Ideal S1x2048x64 .f32) (x3 : Vec Ideal S2048x64 .f32)
    (p : Fin 512) (t : Fin 2048) :
    scores x0 x1 x3 (ix2 p t)
      = (∑ k : Fin 64, x0 (ix3 (0 : Fin 1) p k) * (x1 (ix3 (0 : Fin 1) t k) + x3 (ix2 t k)))
          * Ideal.ofBits .f32 0x3E000000#32 := by
  show matmul dot_S512x64_S2048x64_S512x2048_1_1_0_0_n_n (some .fp32)
      (shapeCast S512x64 x0 shapeCasts_S1x512x64_S512x64 : FVec Ideal S512x64 .f32)
      (addf (shapeCast S2048x64 x1 shapeCasts_S1x2048x64_S2048x64 : FVec Ideal S2048x64 .f32)
        (shapeCast S2048x64 x3 shapeCasts_S2048x64_S2048x64 : FVec Ideal S2048x64 .f32))
      (constant S512x2048 .f32 0x00000000#32) (ix2 p t) * Ideal.ofBits .f32 0x3E000000#32 = _
  rw [scoreDot_apply]
  refine congrArg (· * Ideal.ofBits .f32 0x3E000000#32) (Finset.sum_congr rfl fun k _ => ?_)
  rw [addf_apply, shapeCast_1ab_ab_apply, shapeCast_1ab_ab_apply, shapeCast_self]

/-- The weight at (p, t): the exponential of the score less the fold of max over row p. -/
theorem weights_apply (s : FVec Ideal S512x2048 .f32) (p : Fin 512) (t : Fin 2048) :
    weights s (ix2 p t)
      = Ideal.exp (s (ix2 p t) - (Finset.univ : Finset (Fin 2048)).fold max ⊥ (fun t' => s (ix2 p t'))) := by
  show Ideal.exp (s (ix2 p t) - broadcastTo S512x2048
    (shapeCast S512x1 (multiReduction (F := Ideal) .maximumf [1] S512 s 0xFF800000#32 reduces_S512x2048_S512 (.inl rfl) rfl)
      shapeCasts_S512_S512x1) broadcasts_S512x1_S512x2048 (ix2 p t)) = _
  exact congrArg (fun m => Ideal.exp (s (ix2 p t) - m))
    ((keepdims_apply _ shapeCasts_S512_S512x1 broadcasts_S512x1_S512x2048 p t).trans
      (rowMax_apply s reduces_S512x2048_S512 (.inl rfl) rfl p))

/-- The weighted mean at (p, d): the weights of row p against column d of the values, over the weights' sum. -/
theorem attend_apply (s : FVec Ideal S512x2048 .f32) (v : FVec Ideal S2048x64 .f32) (p : Fin 512) (d : Fin 64) :
    attend s v (ix2 p d)
      = Ideal.div (∑ t : Fin 2048, weights s (ix2 p t) * v (ix2 t d)) (∑ t : Fin 2048, weights s (ix2 p t)) := by
  show Ideal.div
    (matmul dot_S512x2048_S2048x64_S512x64_1_0_0_1_n_n none (truncf .bf16 (weights s) bitsLt_bf16_f32)
      (truncf .bf16 v bitsLt_bf16_f32) (constant S512x64 .f32 0x00000000#32) (ix2 p d))
    (broadcastTo S512x64
      (shapeCast S512x1 (multiReduction (F := Ideal) .add [1] S512 (weights s) 0x00000000#32 reduces_S512x2048_S512 (.inl rfl) rfl)
        shapeCasts_S512_S512x1) broadcasts_S512x1_S512x64 (ix2 p d)) = _
  rw [valueDot_apply]
  exact congrArg (Ideal.div _)
    ((keepdims_apply _ shapeCasts_S512_S512x1 broadcasts_S512x1_S512x64 p d).trans
      (rowSum_apply (weights s) reduces_S512x2048_S512 (.inl rfl) rfl p))

/-! ## The payload at an entry -/

theorem pay_apply (x0 : Vec Ideal S1x512x64 .f32) (x1 x2 : Vec Ideal S1x2048x64 .f32) (x3 : Vec Ideal S2048x64 .f32)
    (u : Fin 1) (p : Fin 512) (d : Fin 64) :
    Gen.k0_pay1 (F := Ideal) x0 x1 x2 x3 (ix3 u p d)
      = Cert.Attn.normLast (Cert.Attn.scoreK (Ideal.ofBits .f32 0x3E000000#32)
          (fun d' : Fin 64 => x0 (ix3 (0 : Fin 1) p d'))
          (fun (t : Fin 2048) (d' : Fin 64) => x1 (ix3 (0 : Fin 1) t d'))
          (fun (t : Fin 2048) (d' : Fin 64) => x3 (ix2 t d')))
          (fun t : Fin 2048 => x2 (ix3 (0 : Fin 1) t d)) := by
  have hs : (fun t : Fin 2048 => scores x0 x1 x3 (ix2 p t))
      = Cert.Attn.scoreK (Ideal.ofBits .f32 0x3E000000#32)
          (fun d' : Fin 64 => x0 (ix3 (0 : Fin 1) p d'))
          (fun (t : Fin 2048) (d' : Fin 64) => x1 (ix3 (0 : Fin 1) t d'))
          (fun (t : Fin 2048) (d' : Fin 64) => x3 (ix2 t d')) :=
    funext fun t => scores_apply x0 x1 x3 p t
  have hw : ∀ t : Fin 2048, weights (scores x0 x1 x3) (ix2 p t)
      = Cert.Attn.weight (fun t' : Fin 2048 => scores x0 x1 x3 (ix2 p t')) t := fun t => weights_apply _ p t
  rw [pay_eq, shapeCast_ab_1ab_apply, attend_apply]
  simp only [hw, shapeCast_1ab_ab_apply, hs]
  rfl

end Cert.KernelIdeal.Body

end
-- ==== Proof.KernelValue.lean ====
/-
  The kernel's result as a function of its arguments, entry by entry.

  The program merges batch and head of the queries, keys and values ([2,16,2048,64] to [32,2048,64]), transposes the
  positional keys ([64,2048] to [2048,64]), runs the attention body on a grid of 32 heads by 4 query tiles of 512 rows,
  and splits batch and head of the result again. At grid point t the body sees rows (t % 4)·512 … of head t / 4 of the
  queries, all of that head's keys and values, and all the positional keys, and writes rows (t % 4)·512 … of head t / 4
  of the result. So every written block is the restriction of ONE function of the four arrays the region finds — entry
  (g, s, d) is the attention output of query row s of head g —, the 128 blocks tile the result array, and the array
  ends holding that function. Read through the reshapes and the transpose, entry (b, h, s, d) of the program's result
  is the attention output of query row s of batch b, head h, against k[b,h,·,·], the positional keys k_pe[·,·] read
  transposed, and column d of v[b,h,·,·].
-/
import proofs.«150011_j21577915695388_2_alg».proof.Defs
import proofs.«150011_j21577915695388_2_alg».proof.Proof.Gen.KernelIdeal.Frame
import proofs.«150011_j21577915695388_2_alg».proof.Proof.LibAttention
import proofs.«150011_j21577915695388_2_alg».proof.Proof.KernelBody
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Entry (g, s, d) of the region's result: the attention output of query row s of head g against that head's keys, the
    positional keys and column d of that head's values. -/
def entry3 (A0 A1 A2 : S32x2048x64.Idx → EReal) (A3 : S2048x64.Idx → EReal) (g : Fin 32) (s : Fin 2048) (d : Fin 64) : EReal :=
  Cert.Attn.normLast (Cert.Attn.scoreK (Ideal.ofBits .f32 0x3E000000#32)
      (fun d' : Fin 64 => A0 (ix3 g s d'))
      (fun (t : Fin 2048) (d' : Fin 64) => A1 (ix3 g t d'))
      (fun (t : Fin 2048) (d' : Fin 64) => A3 (ix2 t d')))
    (fun t : Fin 2048 => A2 (ix3 g t d))

/-- The region's whole result array as one function of the arrays it finds. -/
def G3 (A0 A1 A2 : S32x2048x64.Idx → EReal) (A3 : S2048x64.Idx → EReal) : S32x2048x64.Idx → EReal :=
  fun i => entry3 A0 A1 A2 A3 (i 0) (i 1) (i 2)

/-- The printed index maps over the grid: point t is head t / 4 and query tile t % 4; the query and output windows move
    with both, the key and value windows with the head only, the positional keys stay. -/
theorem idx_facts : ∀ t : Fin cfg0.N,
    win0_4.index t (0 : Fin 3) = t.val / 4 ∧ win0_4.index t (1 : Fin 3) = t.val % 4 ∧ win0_4.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

/-- The query window's block at point t is rows (t % 4)·512 … of head t / 4 of the query array. -/
theorem iblk0_apply (c : Dev nD) (t : Fin cfg0.N) (y : S1x512x64.Idx) (k : S32x2048x64.Idx)
    (h0 : (k 0).val = t.val / 4) (h1 : (k 1).val = t.val % 4 * 512 + (y 1).val) (h2 : (k 2).val = (y 2).val) :
    (iblk m c 0 t : Vec Ideal S1x512x64 .f32) y = (V m c main_v0 : S32x2048x64.Idx → EReal) k := by
  obtain ⟨-, -, -, e0, e1, e2, -⟩ := idx_facts t
  have hy0 : (y 0).val < 1 := (y 0).isLt
  unfold iblk
  rw [View.read_apply]
  show V m c main_v0 _ = V m c main_v0 _
  congr 1
  funext a
  apply Fin.ext
  match a with
  | ⟨0, _⟩ => show win0_0.index t (0 : Fin 3) * 1 + 1 * (y 0).val = (k 0).val; rw [e0, h0]; omega
  | ⟨1, _⟩ => show win0_0.index t (1 : Fin 3) * 512 + 1 * (y 1).val = (k 1).val; rw [e1, h1]; omega
  | ⟨2, _⟩ => show win0_0.index t (2 : Fin 3) * 64 + 1 * (y 2).val = (k 2).val; rw [e2, h2]; omega

/-- The key window's block at point t is all of head t / 4 of the key array. -/
theorem iblk1_apply (c : Dev nD) (t : Fin cfg0.N) (y : S1x2048x64.Idx) (k : S32x2048x64.Idx)
    (h0 : (k 0).val = t.val / 4) (h1 : (k 1).val = (y 1).val) (h2 : (k 2).val = (y 2).val) :
    (iblk m c 1 t : Vec Ideal S1x2048x64 .f32) y = (V m c main_v1 : S32x2048x64.Idx → EReal) k := by
  obtain ⟨-, -, -, -, -, -, e0, e1, e2, -⟩ := idx_facts t
  have hy0 : (y 0).val < 1 := (y 0).isLt
  unfold iblk
  rw [View.read_apply]
  show V m c main_v1 _ = V m c main_v1 _
  congr 1
  funext a
  apply Fin.ext
  match a with
  | ⟨0, _⟩ => show win0_1.index t (0 : Fin 3) * 1 + 1 * (y 0).val = (k 0).val; rw [e0, h0]; omega
  | ⟨1, _⟩ => show win0_1.index t (1 : Fin 3) * 2048 + 1 * (y 1).val = (k 1).val; rw [e1, h1]; omega
  | ⟨2, _⟩ => show win0_1.index t (2 : Fin 3) * 64 + 1 * (y 2).val = (k 2).val; rw [e2, h2]; omega

/-- The value window's block at point t is all of head t / 4 of the value array. -/
theorem iblk2_apply (c : Dev nD) (t : Fin cfg0.N) (y : S1x2048x64.Idx) (k : S32x2048x64.Idx)
    (h0 : (k 0).val = t.val / 4) (h1 : (k 1).val = (y 1).val) (h2 : (k 2).val = (y 2).val) :
    (iblk m c 2 t : Vec Ideal S1x2048x64 .f32) y = (V m c main_v2 : S32x2048x64.Idx → EReal) k := by
  obtain ⟨-, -, -, -, -, -, -, -, -, e0, e1, e2, -⟩ := idx_facts t
  have hy0 : (y 0).val < 1 := (y 0).isLt
  unfold iblk
  rw [View.read_apply]
  show V m c main_v2 _ = V m c main_v2 _
  congr 1
  funext a
  apply Fin.ext
  match a with
  | ⟨0, _⟩ => show win0_2.index t (0 : Fin 3) * 1 + 1 * (y 0).val = (k 0).val; rw [e0, h0]; omega
  | ⟨1, _⟩ => show win0_2.index t (1 : Fin 3) * 2048 + 1 * (y 1).val = (k 1).val; rw [e1, h1]; omega
  | ⟨2, _⟩ => show win0_2.index t (2 : Fin 3) * 64 + 1 * (y 2).val = (k 2).val; rw [e2, h2]; omega

/-- The positional keys' window is the whole array at every point. -/
theorem iblk3_apply (c : Dev nD) (t : Fin cfg0.N) (y : S2048x64.Idx) :
    (iblk m c 3 t : Vec Ideal S2048x64 .f32) y = (V m c main_v3 : S2048x64.Idx → EReal) y := by
  obtain ⟨-, -, -, -, -, -, -, -, -, -, -, -, e0, e1⟩ := idx_facts t
  unfold iblk
  rw [View.read_apply]
  show V m c main_v3 _ = V m c main_v3 _
  congr 1
  funext a
  apply Fin.ext
  match a with
  | ⟨0, _⟩ => show win0_3.index t (0 : Fin 2) * 2048 + 1 * (y 0).val = (y 0).val; rw [e0]; omega
  | ⟨1, _⟩ => show win0_3.index t (1 : Fin 2) * 64 + 1 * (y 1).val = (y 1).val; rw [e1]; omega

/-- Where entry (u, p, d) of the output window's block at point t sits in the result array: head t / 4, row (t % 4)·512 + p. -/
theorem emb4 (t : Fin cfg0.N) (u : Fin 1) (p : Fin 512) (d : Fin 64) (g : Fin 32) (s : Fin 2048)
    (hg : g.val = t.val / 4) (hs : s.val = t.val % 4 * 512 + p.val) :
    (((cfg0.win 4).blk t).view.emb (ix3 u p d) : S32x2048x64.Idx) = ix3 g s d := by
  obtain ⟨e0, e1, e2, -⟩ := idx_facts t
  have hu : u.val < 1 := u.isLt
  funext a
  apply Fin.ext
  match a with
  | ⟨0, _⟩ => show win0_4.index t (0 : Fin 3) * 1 + 1 * u.val = g.val; rw [e0, hg]; omega
  | ⟨1, _⟩ => show win0_4.index t (1 : Fin 3) * 512 + 1 * p.val = s.val; rw [e1, hs]; omega
  | ⟨2, _⟩ => show win0_4.index t (2 : Fin 3) * 64 + 1 * d.val = d.val; rw [e2]; omega

/-- What point t writes back is block t of the one whole-array function of the arrays the region finds. -/
theorem flushed_eq (c : Dev nD) (t : Fin cfg0.N) :
    (dats m 0 c).flushed 4 t = ((cfg0.win 4).blk t).view.read (Elt Ideal)
      (G3 (V m c main_v0) (V m c main_v1) (V m c main_v2) (V m c main_v3)) := by
  have hN : cfg0.N = 128 := N_0
  have ht : t.val < 128 := hN ▸ t.isLt
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3, View.ld_unit_zero (S := S2048x64) hz2]
  funext j
  obtain ⟨u, p, d, rfl⟩ : ∃ (u : Fin 1) (p : Fin 512) (d : Fin 64), j = ix3 u p d := ⟨j 0, j 1, j 2, eq_ix3 j⟩
  refine (Cert.KernelIdeal.Body.pay_apply (iblk m c 0 t) (iblk m c 1 t) (iblk m c 2 t) (iblk m c 3 t) u p d).trans ?_
  rw [View.read_apply, emb4 t u p d ⟨t.val / 4, by omega⟩ ⟨t.val % 4 * 512 + p.val, by have := p.isLt; omega⟩ rfl rfl]
  show _ = entry3 _ _ _ _ _ _ _
  unfold entry3
  have hq : (fun d' : Fin 64 => (iblk m c 0 t : Vec Ideal S1x512x64 .f32) (ix3 (0 : Fin 1) p d'))
      = fun d' : Fin 64 => (V m c main_v0 : S32x2048x64.Idx → EReal) (ix3 (⟨t.val / 4, by omega⟩ : Fin 32) (⟨t.val % 4 * 512 + p.val, by have := p.isLt; omega⟩ : Fin 2048) d') :=
    funext fun d' => iblk0_apply m c t _ _ rfl rfl rfl
  have hk : (fun (t' : Fin 2048) (d' : Fin 64) => (iblk m c 1 t : Vec Ideal S1x2048x64 .f32) (ix3 (0 : Fin 1) t' d'))
      = fun (t' : Fin 2048) (d' : Fin 64) => (V m c main_v1 : S32x2048x64.Idx → EReal) (ix3 (⟨t.val / 4, by omega⟩ : Fin 32) t' d') :=
    funext fun t' => funext fun d' => iblk1_apply m c t _ _ rfl rfl rfl
  have hv : (fun t' : Fin 2048 => (iblk m c 2 t : Vec Ideal S1x2048x64 .f32) (ix3 (0 : Fin 1) t' d))
      = fun t' : Fin 2048 => (V m c main_v2 : S32x2048x64.Idx → EReal) (ix3 (⟨t.val / 4, by omega⟩ : Fin 32) t' d) :=
    funext fun t' => iblk2_apply m c t _ _ rfl rfl rfl
  have hpe : (fun (t' : Fin 2048) (d' : Fin 64) => (iblk m c 3 t : Vec Ideal S2048x64 .f32) (ix2 t' d'))
      = fun (t' : Fin 2048) (d' : Fin 64) => (V m c main_v3 : S2048x64.Idx → EReal) (ix2 t' d') :=
    funext fun t' => funext fun d' => iblk3_apply m c t _
  rw [hq, hk, hv, hpe]

/-- An index of the result array is in point t's block iff each coordinate is in the block's range on its axis. -/
theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4).slice (win0_4.rect t)).set ↔ _
  rw [View.set_slice_whole, Rect.mem_set_unit]
  exact Iff.rfl

/-- The output's blocks tile the result array: row s of head g is written by point 4·g + s / 512. -/
theorem cover (i : S32x2048x64.Idx) :
    ∃ t : Fin cfg0.N, (cfg0.win 4).flush t = true ∧ i ∈ ((cfg0.win 4).blk t).view.set := by
  have hN : cfg0.N = 128 := N_0
  have h0 : (i 0).val < 32 := (i 0).isLt
  have h1 : (i 1).val < 2048 := (i 1).isLt
  have h2 : (i 2).val < 64 := (i 2).isLt
  have hlt : (i 0).val * 4 + (i 1).val / 512 < cfg0.N := by rw [hN]; omega
  refine ⟨⟨(i 0).val * 4 + (i 1).val / 512, hlt⟩, flush0_4 _, ?_⟩
  rw [mem_blk4]
  obtain ⟨e0, e1, e2, -⟩ := idx_facts ⟨(i 0).val * 4 + (i 1).val / 512, hlt⟩
  intro a
  match a with
  | ⟨0, _⟩ =>
    show win0_4.index _ (0 : Fin 3) * 1 ≤ (i 0).val ∧ (i 0).val < win0_4.index _ (0 : Fin 3) * 1 + 1
    rw [e0]; show ((i 0).val * 4 + (i 1).val / 512) / 4 * 1 ≤ (i 0).val ∧ (i 0).val < ((i 0).val * 4 + (i 1).val / 512) / 4 * 1 + 1; omega
  | ⟨1, _⟩ =>
    show win0_4.index _ (1 : Fin 3) * 512 ≤ (i 1).val ∧ (i 1).val < win0_4.index _ (1 : Fin 3) * 512 + 512
    rw [e1]; show ((i 0).val * 4 + (i 1).val / 512) % 4 * 512 ≤ (i 1).val ∧ (i 1).val < ((i 0).val * 4 + (i 1).val / 512) % 4 * 512 + 512; omega
  | ⟨2, _⟩ =>
    show win0_4.index _ (2 : Fin 3) * 64 ≤ (i 2).val ∧ (i 2).val < win0_4.index _ (2 : Fin 3) * 64 + 64
    rw [e2]; omega

/-- After the run the region's result array holds the one whole-array function of the arrays the region found. -/
theorem final (c : Dev nD) :
    (dats m 0 c).arrAt 4 cfg0.N = G3 (V m c main_v0) (V m c main_v1) (V m c main_v2) (V m c main_v3) :=
  (dats m 0 c).arrAt_eq_of_cover 4 _ (fun t _ => flushed_eq m c t) cover

/-! ## The host operations around the region -/

/-- Merging batch and head: entry (g, s, d) of the [32, 2048, 64] array is entry (b, h, s, d) of the [2, 16, 2048, 64] one
    when g = 16·b + h. -/
theorem merge_apply (x : S2x16x2048x64.Idx → EReal) (hc : S2x16x2048x64.ShapeCasts S32x2048x64)
    (b : Fin 2) (h : Fin 16) (s : Fin 2048) (d : Fin 64) (g : Fin 32) (hg : g.val = b.val * 16 + h.val) :
    shapeCast S32x2048x64 x hc (ix3 g s d) = x (ix4 b h s d) :=
  shapeCast_apply x hc _ _ (by
    rw [Shape.rowMajor_val_four, Shape.rowMajor_val_three]
    show ((b.val * 16 + h.val) * 2048 + s.val) * 64 + d.val = (g.val * 2048 + s.val) * 64 + d.val
    rw [hg])

/-- Splitting them again: entry (b, h, s, d) of the [2, 16, 2048, 64] array is entry (16·b + h, s, d) of the merged one. -/
theorem split_apply (y : S32x2048x64.Idx → EReal) (hc : S32x2048x64.ShapeCasts S2x16x2048x64)
    (b : Fin 2) (h : Fin 16) (s : Fin 2048) (d : Fin 64) (g : Fin 32) (hg : g.val = b.val * 16 + h.val) :
    shapeCast S2x16x2048x64 y hc (ix4 b h s d) = y (ix3 g s d) :=
  shapeCast_apply y hc _ _ (by
    rw [Shape.rowMajor_val_four, Shape.rowMajor_val_three]
    show (g.val * 2048 + s.val) * 64 + d.val = ((b.val * 16 + h.val) * 2048 + s.val) * 64 + d.val
    rw [hg])

/-- The region finds the queries, keys and values with batch and head merged, and the positional keys transposed. -/
theorem V_v0 (c : Dev nD) : (V m c main_v0 : S32x2048x64.Idx → EReal)
    = shapeCast S32x2048x64 (m ((c : Thread nD τ).loc main_arg0) : S2x16x2048x64.Idx → EReal) shapeCasts_S2x16x2048x64_S32x2048x64 := by
  show StableHlo.after hostOps0 (fun b => m (c, b)) (Proc.devRef .tc main_v0) = _
  after_results
  rfl
theorem V_v1 (c : Dev nD) : (V m c main_v1 : S32x2048x64.Idx → EReal)
    = shapeCast S32x2048x64 (m ((c : Thread nD τ).loc main_arg1) : S2x16x2048x64.Idx → EReal) shapeCasts_S2x16x2048x64_S32x2048x64 := by
  show StableHlo.after hostOps0 (fun b => m (c, b)) (Proc.devRef .tc main_v1) = _
  after_results
  rfl
theorem V_v2 (c : Dev nD) : (V m c main_v2 : S32x2048x64.Idx → EReal)
    = shapeCast S32x2048x64 (m ((c : Thread nD τ).loc main_arg2) : S2x16x2048x64.Idx → EReal) shapeCasts_S2x16x2048x64_S32x2048x64 := by
  show StableHlo.after hostOps0 (fun b => m (c, b)) (Proc.devRef .tc main_v2) = _
  after_results
  rfl
theorem V_v3 (c : Dev nD) : (V m c main_v3 : S2048x64.Idx → EReal)
    = transpose S2048x64 [1, 0] (m ((c : Thread nD τ).loc main_arg3) : S64x2048.Idx → EReal) transposes_S64x2048_S2048x64_1_0 := by
  show StableHlo.after hostOps0 (fun b => m (c, b)) (Proc.devRef .tc main_v3) = _
  after_results

/-- The program's result is the region's result array with batch and head split again. -/
theorem tail_eq (c : Dev nD) :
    (Pipeline.afterTail₀ cfgs (dats m) 0 (V0 m) [hostOps1] c main_v5 : S2x16x2048x64.Idx → EReal)
      = shapeCast S2x16x2048x64 ((dats m 0 c).arrAt 4 cfg0.N : S32x2048x64.Idx → EReal) shapeCasts_S32x2048x64_S2x16x2048x64 := by
  unfold Pipeline.afterTail₀
  show StableHlo.after hostOps1 _ (Proc.devRef .tc main_v5) = _
  after_results
  rw [Pipeline.withArrays_arr spec0 launch0.win.arr_inj c _ _ 4]
  rfl

/-! ## The program's result, entry by entry -/

/-- Entry (b, h, s, d) of the program's result: the attention output of query row s of batch b, head h against that
    head's keys, the positional keys (read transposed) and column d of that head's values — the scores contracted once
    against the summed keys and scaled by 0.125, the weighted mean normalised after the sum. -/
theorem result_apply (c : Dev nD) (b : Fin 2) (h : Fin 16) (s : Fin 2048) (d : Fin 64) :
    (Pipeline.afterTail₀ cfgs (dats m) 0 (V0 m) [hostOps1] c main_v5 : S2x16x2048x64.Idx → EReal) (ix4 b h s d)
      = Cert.Attn.normLast (Cert.Attn.scoreK (Ideal.ofBits .f32 0x3E000000#32)
          (fun d' : Fin 64 => (m ((c : Thread nD τ).loc main_arg0) : S2x16x2048x64.Idx → EReal) (ix4 b h s d'))
          (fun (t : Fin 2048) (d' : Fin 64) => (m ((c : Thread nD τ).loc main_arg1) : S2x16x2048x64.Idx → EReal) (ix4 b h t d'))
          (fun (t : Fin 2048) (d' : Fin 64) => (m ((c : Thread nD τ).loc main_arg3) : S64x2048.Idx → EReal) (ix2 d' t)))
          (fun t : Fin 2048 => (m ((c : Thread nD τ).loc main_arg2) : S2x16x2048x64.Idx → EReal) (ix4 b h t d)) := by
  have hb : b.val < 2 := b.isLt
  have hh : h.val < 16 := h.isLt
  rw [tail_eq, split_apply _ _ b h s d ⟨b.val * 16 + h.val, by omega⟩ rfl, final]
  show entry3 _ _ _ _ _ _ _ = _
  unfold entry3
  rw [V_v0, V_v1, V_v2, V_v3]
  have hq : (fun d' : Fin 64 => shapeCast S32x2048x64 (m ((c : Thread nD τ).loc main_arg0) : S2x16x2048x64.Idx → EReal)
        shapeCasts_S2x16x2048x64_S32x2048x64 (ix3 (⟨b.val * 16 + h.val, by omega⟩ : Fin 32) s d'))
      = fun d' : Fin 64 => (m ((c : Thread nD τ).loc main_arg0) : S2x16x2048x64.Idx → EReal) (ix4 b h s d') :=
    funext fun d' => merge_apply _ _ b h s d' _ rfl
  have hk : (fun (t : Fin 2048) (d' : Fin 64) => shapeCast S32x2048x64 (m ((c : Thread nD τ).loc main_arg1) : S2x16x2048x64.Idx → EReal)
        shapeCasts_S2x16x2048x64_S32x2048x64 (ix3 (⟨b.val * 16 + h.val, by omega⟩ : Fin 32) t d'))
      = fun (t : Fin 2048) (d' : Fin 64) => (m ((c : Thread nD τ).loc main_arg1) : S2x16x2048x64.Idx → EReal) (ix4 b h t d') :=
    funext fun t => funext fun d' => merge_apply _ _ b h t d' _ rfl
  have hv : (fun t : Fin 2048 => shapeCast S32x2048x64 (m ((c : Thread nD τ).loc main_arg2) : S2x16x2048x64.Idx → EReal)
        shapeCasts_S2x16x2048x64_S32x2048x64 (ix3 (⟨b.val * 16 + h.val, by omega⟩ : Fin 32) t d))
      = fun t : Fin 2048 => (m ((c : Thread nD τ).loc main_arg2) : S2x16x2048x64.Idx → EReal) (ix4 b h t d) :=
    funext fun t => merge_apply _ _ b h t d _ rfl
  have hpe : (fun (t : Fin 2048) (d' : Fin 64) => transpose S2048x64 [1, 0] (m ((c : Thread nD τ).loc main_arg3) : S64x2048.Idx → EReal)
        transposes_S64x2048_S2048x64_1_0 (ix2 t d'))
      = fun (t : Fin 2048) (d' : Fin 64) => (m ((c : Thread nD τ).loc main_arg3) : S64x2048.Idx → EReal) (ix2 d' t) :=
    funext fun t => funext fun d' => transpose_ix2_apply _ _ t d'
  rw [hq, hk, hv, hpe]

/-- The run, read: the result buffer ends at the tail's value, the arguments unchanged. -/
theorem run : θ_run defs (onTc (τ := τ) (main (F := Ideal))) ⟨m, fun _ => 0, ρ⟩ (fun r => ∀ c : Dev nD,
      r.2.mem ((c.tc : Thread nD τ).loc main_v5) = Pipeline.afterTail₀ cfgs (dats m) 0 (V0 m) [hostOps1] c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c).2 main_v5 (Pipeline.mem_restRefs_of main_v5 (by decide) (by decide)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference program's result read at one index, over the extended reals.

  Entry (b, h, s, d) of the output is the weighted mean of column d of the values under the softmax of row s of the
  scaled scores, each weight normalised before the sum. The score of key t in that row is the contraction of query row
  s against content key t plus the contraction of query row s against positional key t, divided by the square root of
  64. The softmax weight of key t is the exponential of its score minus the row's maximum, the maximum a fold from −∞.

  The printed program differs from that description in two places, both removed here: its row sum starts from the
  zero word, which is 0, and its row maximum is joined once more with −∞, which is the least extended real.
-/
import proofs.«150011_j21577915695388_2_alg».proof.Proof.Gen.ReferenceIdeal.Read
import proofs.«150011_j21577915695388_2_alg».proof.Proof.LibAttention
import proofs.«150011_j21577915695388_2_alg».proof.Proof.Consts
import Idealize.ShloMosaic.Lib.ValueIdx
import Idealize.ShloMosaic.PureOps.Ideal.Laws
import Idealize.ShloMosaic.PureOps.Reduce

noncomputable section

open Idealize.ShloMosaic Idealize.ShloMosaic.ValueIdx
namespace Cert.ReferenceIdeal.RefValue
open Cert.ReferenceIdeal

/-! ## The composed index functions at explicit coordinates -/

/-- The first contraction reads query row (b, h, s) at column k … -/
theorem lidx_v0 (b : Fin 2) (h : Fin 16) (s t : Fin 2048) (k : Fin 64) :
    Read.lidx_main_v0 (ix4 b h s t) k = ix4 b h s k :=
  funext fun a => Fin.ext (by match a with | ⟨0, _⟩ => rfl | ⟨1, _⟩ => rfl | ⟨2, _⟩ => rfl | ⟨3, _⟩ => rfl)

/-- … against content key (b, h, t) at column k. -/
theorem ridx_v0 (b : Fin 2) (h : Fin 16) (s t : Fin 2048) (k : Fin 64) :
    Read.ridx_main_v0 (ix4 b h s t) k = ix4 b h t k :=
  funext fun a => Fin.ext (by match a with | ⟨0, _⟩ => rfl | ⟨1, _⟩ => rfl | ⟨2, _⟩ => rfl | ⟨3, _⟩ => rfl)

/-- The second contraction reads the same query row at column k … -/
theorem lidx_v1 (b : Fin 2) (h : Fin 16) (s t : Fin 2048) (k : Fin 64) :
    Read.lidx_main_v1 (ix4 b h s t) k = ix4 b h s k :=
  funext fun a => Fin.ext (by match a with | ⟨0, _⟩ => rfl | ⟨1, _⟩ => rfl | ⟨2, _⟩ => rfl | ⟨3, _⟩ => rfl)

/-- … against the positional keys at (k, t). -/
theorem ridx_v1 (b : Fin 2) (h : Fin 16) (s t : Fin 2048) (k : Fin 64) :
    Read.ridx_main_v1 (ix4 b h s t) k = ix2 k t :=
  funext fun a => Fin.ext (by match a with | ⟨0, _⟩ => rfl | ⟨1, _⟩ => rfl)

/-- The row maximum, kept as a unit last axis and then spread along the keys, is read at (b, h, s). -/
theorem idx_v9_v10 (b : Fin 2) (h : Fin 16) (s t : Fin 2048) :
    Read.idx_main_v9 (Read.idx_main_v10 (ix4 b h s t)) = ix3 b h s :=
  funext fun a => Fin.ext (by match a with | ⟨0, _⟩ => rfl | ⟨1, _⟩ => rfl | ⟨2, _⟩ => rfl)

/-- The row sum, kept as a unit last axis and then spread along the keys, is read at (b, h, s). -/
theorem idx_v14_v15 (b : Fin 2) (h : Fin 16) (s t : Fin 2048) :
    Read.idx_main_v14 (Read.idx_main_v15 (ix4 b h s t)) = ix3 b h s :=
  funext fun a => Fin.ext (by match a with | ⟨0, _⟩ => rfl | ⟨1, _⟩ => rfl | ⟨2, _⟩ => rfl)

/-- The row sum at (b, h, s) runs over the entries (b, h, s, k). -/
theorem idx_v13 (b : Fin 2) (h : Fin 16) (s k : Fin 2048) :
    Read.idx_main_v13 (ix3 b h s) k = ix4 b h s k :=
  funext fun a => Fin.ext (by match a with | ⟨0, _⟩ => rfl | ⟨1, _⟩ => rfl | ⟨2, _⟩ => rfl | ⟨3, _⟩ => rfl)

/-- The last contraction reads normalised weight (b, h, s, k) … -/
theorem lidx_v17 (b : Fin 2) (h : Fin 16) (s : Fin 2048) (d : Fin 64) (k : Fin 2048) :
    Read.lidx_main_v17 (ix4 b h s d) k = ix4 b h s k :=
  funext fun a => Fin.ext (by match a with | ⟨0, _⟩ => rfl | ⟨1, _⟩ => rfl | ⟨2, _⟩ => rfl | ⟨3, _⟩ => rfl)

/-- … against value (b, h, k, d). -/
theorem ridx_v17 (b : Fin 2) (h : Fin 16) (s : Fin 2048) (d : Fin 64) (k : Fin 2048) :
    Read.ridx_main_v17 (ix4 b h s d) k = ix4 b h k d :=
  funext fun a => Fin.ext (by match a with | ⟨0, _⟩ => rfl | ⟨1, _⟩ => rfl | ⟨2, _⟩ => rfl | ⟨3, _⟩ => rfl)

/-! ## The scaled scores -/

/-- Entry (b, h, s, t) of the scaled scores: the two contractions added, divided by the square root of 64. -/
theorem v5_apply (x0 x1 : (⟨S2x16x2048x64, .f32⟩ : BufTy).Contents (Elt Ideal)) (x3 : (⟨S64x2048, .f32⟩ : BufTy).Contents (Elt Ideal))
    (b : Fin 2) (h : Fin 16) (s t : Fin 2048) :
    Read.val_main_v5 (F := Ideal) x0 x1 x3 (ix4 b h s t)
      = Cert.Attn.scoreR (Ideal.sqrt (Ideal.ofBits .f32 0x42800000#32))
          (fun d' : Fin 64 => x0 (ix4 b h s d'))
          (fun (t : Fin 2048) (d' : Fin 64) => x1 (ix4 b h t d'))
          (fun (t : Fin 2048) (d' : Fin 64) => x3 (ix2 d' t)) t := by
  rw [Read.val_main_v5_apply, Read.val_main_v2_apply, Read.val_main_v0_apply, Read.val_main_v1_apply,
    Read.val_main_v4_apply, Read.val_main_v3_apply, Read.val_main_cst_apply]
  simp only [Ideal.hostDivf_def, Ideal.addf_def, Ideal.hostUnary_sqrt_def, Ideal.ofBits_def,
    lidx_v0, ridx_v0, lidx_v1, ridx_v1]
  rfl

/-! ## The row maximum -/

/-- The reduced index (b, h, s) with coordinate k put back on the last axis is (b, h, s, k). -/
theorem lift_ix3 (hr : S2x16x2048x2048.Reduces [3] S2x16x2048) (b : Fin 2) (h : Fin 16) (s : Fin 2048)
    (k : Fin (S2x16x2048x2048.size 3)) :
    hr.lift (ix3 b h s) k = ix4 b h s (⟨k.val, k.isLt⟩ : Fin 2048) := by
  funext c; apply Fin.ext
  match c with | ⟨0, _⟩ => rfl | ⟨1, _⟩ => rfl | ⟨2, _⟩ => rfl | ⟨3, _⟩ => rfl

/-- The reduce with a maximum body over the last axis, from the word of −∞: at (b, h, s) the fold of max from the
    least extended real over row (b, h, s) of the scores. -/
theorem v6_apply (x0 x1 : (⟨S2x16x2048x64, .f32⟩ : BufTy).Contents (Elt Ideal)) (x3 : (⟨S64x2048, .f32⟩ : BufTy).Contents (Elt Ideal))
    (b : Fin 2) (h : Fin 16) (s : Fin 2048) :
    Read.val_main_v6 (F := Ideal) x0 x1 x3 (ix3 b h s)
      = (Finset.univ : Finset (Fin 2048)).fold max ⊥ (fun t => Read.val_main_v5 (F := Ideal) x0 x1 x3 (ix4 b h s t)) := by
  unfold Read.val_main_v6
  generalize Read.val_main_v5 (F := Ideal) x0 x1 x3 = y
  have hr : S2x16x2048x2048.Reduces [3] S2x16x2048 := by decide
  have key := Host.reduce_eq_fold_single (s := S2x16x2048x2048) (t := S2x16x2048) (a := 3) (α := Ideal .f32) (u := S_)
    (FloatOps.maximumf (F := Ideal) (φ := .f32)) y (Read.val_main_cst_0 (F := Ideal))
    Gen.reducesTo_S2x16x2048x2048_S2x16x2048_d3 hr Gen.h_S_ (ix3 b h s)
  refine key.trans ?_
  have hf : (y ∘ hr.lift (ix3 b h s)) = fun k : Fin 2048 => y (ix4 b h s k) :=
    funext fun k => congrArg y (lift_ix3 hr b h s k)
  rw [Read.val_main_cst_0_apply, Ideal.ofBits_def, Cert.Consts.ofBits_neg_inf]
  exact congrArg (fun f => Finset.fold max (⊥ : EReal) f (Finset.univ : Finset (Fin 2048))) hf

/-- Joined once more with −∞ the row maximum is unchanged. -/
theorem v8_apply (x0 x1 : (⟨S2x16x2048x64, .f32⟩ : BufTy).Contents (Elt Ideal)) (x3 : (⟨S64x2048, .f32⟩ : BufTy).Contents (Elt Ideal))
    (b : Fin 2) (h : Fin 16) (s : Fin 2048) :
    Read.val_main_v8 (F := Ideal) x0 x1 x3 (ix3 b h s)
      = (Finset.univ : Finset (Fin 2048)).fold max ⊥ (fun t => Read.val_main_v5 (F := Ideal) x0 x1 x3 (ix4 b h s t)) := by
  rw [Read.val_main_v8_apply, Read.val_main_v7_apply, Read.val_main_cst_1_apply, v6_apply,
    Ideal.ofBits_def, Cert.Consts.ofBits_neg_inf, Ideal.maximumf_def]
  exact max_eq_right bot_le

/-! ## The softmax weights, their sum, and the output -/

/-- Entry (b, h, s, t) of the exponentials is the softmax weight of key t in row (b, h, s) of the scores. -/
theorem v12_apply (x0 x1 : (⟨S2x16x2048x64, .f32⟩ : BufTy).Contents (Elt Ideal)) (x3 : (⟨S64x2048, .f32⟩ : BufTy).Contents (Elt Ideal))
    (b : Fin 2) (h : Fin 16) (s t : Fin 2048) :
    Read.val_main_v12 (F := Ideal) x0 x1 x3 (ix4 b h s t)
      = Cert.Attn.weight (fun t' : Fin 2048 => Read.val_main_v5 (F := Ideal) x0 x1 x3 (ix4 b h s t')) t := by
  rw [Read.val_main_v12_apply, Read.val_main_v11_apply, Read.val_main_v10_apply, Read.val_main_v9_apply,
    idx_v9_v10, v8_apply, Ideal.hostUnary_exp_def, Ideal.subf_def]
  rfl

/-- The row sum from the zero word is the sum of the row's weights. -/
theorem v13_apply (x0 x1 : (⟨S2x16x2048x64, .f32⟩ : BufTy).Contents (Elt Ideal)) (x3 : (⟨S64x2048, .f32⟩ : BufTy).Contents (Elt Ideal))
    (b : Fin 2) (h : Fin 16) (s : Fin 2048) :
    Read.val_main_v13 (F := Ideal) x0 x1 x3 (ix3 b h s)
      = ∑ t : Fin 2048, Cert.Attn.weight (fun t' : Fin 2048 => Read.val_main_v5 (F := Ideal) x0 x1 x3 (ix4 b h s t')) t := by
  rw [Read.val_main_v13_apply, Read.val_main_cst_2_apply, Ideal.ofBits_def, Cert.Consts.ofBits_zero, zero_add]
  exact Finset.sum_congr rfl fun k _ => by rw [idx_v13, v12_apply]

/-- Entry (b, h, s, t) of the normalised weights. -/
theorem v16_apply (x0 x1 : (⟨S2x16x2048x64, .f32⟩ : BufTy).Contents (Elt Ideal)) (x3 : (⟨S64x2048, .f32⟩ : BufTy).Contents (Elt Ideal))
    (b : Fin 2) (h : Fin 16) (s t : Fin 2048) :
    Read.val_main_v16 (F := Ideal) x0 x1 x3 (ix4 b h s t)
      = Ideal.div (Cert.Attn.weight (fun t' : Fin 2048 => Read.val_main_v5 (F := Ideal) x0 x1 x3 (ix4 b h s t')) t)
          (∑ t'' : Fin 2048, Cert.Attn.weight (fun t' : Fin 2048 => Read.val_main_v5 (F := Ideal) x0 x1 x3 (ix4 b h s t')) t'') := by
  rw [Read.val_main_v16_apply, Read.val_main_v15_apply, Read.val_main_v14_apply, idx_v14_v15, v12_apply, v13_apply,
    Ideal.hostDivf_def]

/-- Entry (b, h, s, d) of the reference's result: the weighted mean of column d of the values, each weight of row
    (b, h, s) of the scores normalised before the sum. -/
theorem ref_apply (x0 x1 x2 : (⟨S2x16x2048x64, .f32⟩ : BufTy).Contents (Elt Ideal)) (x3 : (⟨S64x2048, .f32⟩ : BufTy).Contents (Elt Ideal))
    (b : Fin 2) (h : Fin 16) (s : Fin 2048) (d : Fin 64) :
    Read.val_main_v17 (F := Ideal) x0 x1 x2 x3 (ix4 b h s d)
      = Cert.Attn.normFirst (Cert.Attn.scoreR (Ideal.sqrt (Ideal.ofBits .f32 0x42800000#32))
          (fun d' : Fin 64 => x0 (ix4 b h s d'))
          (fun (t : Fin 2048) (d' : Fin 64) => x1 (ix4 b h t d'))
          (fun (t : Fin 2048) (d' : Fin 64) => x3 (ix2 d' t)))
          (fun t : Fin 2048 => x2 (ix4 b h t d)) := by
  have hrow : (fun t' : Fin 2048 => Read.val_main_v5 (F := Ideal) x0 x1 x3 (ix4 b h s t'))
      = Cert.Attn.scoreR (Ideal.sqrt (Ideal.ofBits .f32 0x42800000#32))
          (fun d' : Fin 64 => x0 (ix4 b h s d'))
          (fun (t : Fin 2048) (d' : Fin 64) => x1 (ix4 b h t d'))
          (fun (t : Fin 2048) (d' : Fin 64) => x3 (ix2 d' t)) :=
    funext fun t' => v5_apply x0 x1 x3 b h s t'
  rw [Read.val_main_v17_apply, ← hrow]
  unfold Cert.Attn.normFirst
  exact Finset.sum_congr rfl fun k _ => by rw [lidx_v17, ridx_v17, v16_apply]

end Cert.ReferenceIdeal.RefValue

end
-- ==== Proof.lean ====
/-
  The kernel computes scaled-dot-product attention with a shared positional key, head by head:
  out[b,h,s,d] = (Σ_t w(s,t) · v[b,h,t,d]) / Σ_t w(s,t), with w(s,t) = exp (S(s,t) − max_t' S(s,t')) and
  S(s,t) = (Σ_d' q[b,h,s,d'] · (k[b,h,t,d'] + k_pe[d',t])) · 0.125 — one contraction against the sum of the content key
  and the positional key. The reference contracts the query against the two separately, adds, divides by sqrt 64,
  takes a softmax over t (each weight divided by the row sum first) and contracts with the values:
  ref[b,h,s,d] = Σ_t (W(s,t) / Σ_t' W(s,t')) · v[b,h,t,d], W(s,t) = exp (X(s,t) − max_t' X(s,t')),
  X(s,t) = (Σ_d' q·k + Σ_d' q·k_pe) / sqrt 64.

  Over the extended reals the two agree where every input is finite. 0.125 is exactly 1/8 and sqrt 64 is 8, so
  both score rows are the same row of reals (multiplication distributes over the sum of the two keys, which needs
  finiteness). The row maximum of finitely many reals is a real, so every weight is a positive real and the row sum is
  a positive real; dividing the weighted sum by it, or each weight before summing, is then the distributive law in the
  reals. A change of float format is the identity at the extended reals, so the truncation of the weights and values to
  bf16 before the second contraction changes nothing, and a contraction into a zero accumulator is the plain sum.

  The three frames are the generated ones (the reference's is its generated run with the result dropped); the ideal pass
  rewrote nothing, so preservation is trivial.
-/
import proofs.«150011_j21577915695388_2_alg».proof.Defs
import proofs.«150011_j21577915695388_2_alg».proof.Proof.Gen.Kernel
import proofs.«150011_j21577915695388_2_alg».proof.Proof.Gen.Kernel.Skeleton
import proofs.«150011_j21577915695388_2_alg».proof.Proof.Gen.Kernel.Launch
import proofs.«150011_j21577915695388_2_alg».proof.Proof.Gen.Kernel.Points
import proofs.«150011_j21577915695388_2_alg».proof.Proof.Gen.Kernel.Frame
import proofs.«150011_j21577915695388_2_alg».proof.Proof.Gen.KernelIdeal
import proofs.«150011_j21577915695388_2_alg».proof.Proof.Gen.KernelIdeal.Skeleton
import proofs.«150011_j21577915695388_2_alg».proof.Proof.Gen.KernelIdeal.Launch
import proofs.«150011_j21577915695388_2_alg».proof.Proof.Gen.KernelIdeal.Points
import proofs.«150011_j21577915695388_2_alg».proof.Proof.Gen.KernelIdeal.Frame
import proofs.«150011_j21577915695388_2_alg».proof.Proof.Gen.ReferenceIdeal
import proofs.«150011_j21577915695388_2_alg».proof.Proof.Gen.ReferenceIdeal.Run
import proofs.«150011_j21577915695388_2_alg».proof.Proof.Gen.ReferenceIdeal.Read
import proofs.«150011_j21577915695388_2_alg».proof.Proof.Gen.Pre_finite_inputs
import proofs.«150011_j21577915695388_2_alg».proof.Proof.Consts
import proofs.«150011_j21577915695388_2_alg».proof.Proof.Finite
import proofs.«150011_j21577915695388_2_alg».proof.Proof.LibAttentionLaw
import proofs.«150011_j21577915695388_2_alg».proof.Proof.KernelValue
import proofs.«150011_j21577915695388_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on finite arguments, end with the same result: entry by entry the kernel's is
    the attention output with the scores scaled by 1/8 and the mean normalised last, the reference's the same with the
    scores divided by 8 and each weight normalised first, and at finite inputs the two are one real number. -/
theorem algebraic : Cert.algebraic_KernelIdeal_ReferenceIdeal := by
  intro m ρ m' ρ' hpre hagree
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.KValue.run m ρ)
    obtain ⟨f0, f1, f2, f3⟩ := Cert.Finite.finite_of_pre _ _ _ _ (hpre c)
    funext i
    obtain ⟨b, hd, s, d, rfl⟩ : ∃ (b : Fin 2) (hd : Fin 16) (s : Fin 2048) (d : Fin 64), i = ix4 b hd s d :=
      ⟨i 0, i 1, i 2, i 3, eq_ix4 i⟩
    rw [Cert.KernelIdeal.KValue.result_apply]
    show _ = Cert.ReferenceIdeal.Read.val_main_v17 (F := Ideal) _ _ _ _ (ix4 b hd s d)
    rw [Cert.ReferenceIdeal.RefValue.ref_apply, Cert.Consts.ofBits_eighth, Cert.Consts.sqrt_64]
    exact Cert.Attn.normLast_eq_normFirst _ _ _ _ (fun d' => f0 _) (fun t d' => f1 _) (fun t d' => f3 _) (fun t => f2 _)
  · refine (θ_run Cert.ReferenceIdeal.defs _ _).mono (fun r h c => ⟨?_, (h c).2⟩)
      (Cert.ReferenceIdeal.Value.run (F := Ideal) m' ρ')
    rw [(h c).1, Cert.ReferenceIdeal.Read.val_main_v17_eq, (hagree c).1, (hagree c).2.1, (hagree c).2.2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
